-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1280 : Shape := ⟨2, ![20000, 1280]⟩
abbrev S3x4096 : Shape := ⟨2, ![3, 4096]⟩
abbrev S1024x1280 : Shape := ⟨2, ![1024, 1280]⟩
abbrev S1024 : Shape := ⟨1, ![1024]⟩
abbrev S512x1024 : Shape := ⟨2, ![512, 1024]⟩
abbrev S512 : Shape := ⟨1, ![512]⟩
abbrev S_ : Shape := ⟨0, ![]⟩

class Facts : Prop where
  bcast_S_S20000x1280 : S_.BroadcastsInDim S20000x1280 (![] : Fin 0 → Fin S20000x1280.rank)
  reducesTo_S20000x1280_S_d0_1 : S20000x1280.ReducesTo [0, 1] S_
  h_S_ : 0 < S_.numel
  bcast_S_S1024x1280 : S_.BroadcastsInDim S1024x1280 (![] : Fin 0 → Fin S1024x1280.rank)
  reducesTo_S1024x1280_S_d0_1 : S1024x1280.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512x1024 .f32) (main_arg9 : FVec F S512 .f32) (main_v33 : IVec S_ 1) : IVec S_ 1 :=
  let main_v34 : FVec F S512x1024 .f32 := Host.absf main_arg8
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg5 : FVec F S512 .f32) (main_arg6 : FVec F S1024x1280 .f32) (main_arg7 : FVec F S1024 .f32) (main_arg8 : FVec F S512x1024 .f32) (main_arg9 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x1280 .f32 := Host.absf main_arg6
  let main_cst_8 : FVec F S_ .f32 := constant S_ .f32 0x7F800000#32
  let main_v25 : FVec F S1024x1280 .f32 := broadcastInDim S1024x1280 ![] bcast_S_S1024x1280 main_cst_8
  let main_v26 : IVec S1024x1280 1 := cmpf .olt main_v24 main_v25
  let main_c_9 : IVec S_ 1 := constantI S_ 1 1#1
  let main_v27 : IVec S_ 1 := (fun x v => Host.reduce IntOp.andi x v reducesTo_S1024x1280_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S20000x1280 .f32) (main_arg1 : IVec S3x4096 32) (main_arg2 : FVec F S1024x1280 .f32) (main_arg3 : FVec F S1024 .f32) (main_arg4 : FVec F S512x1024 .f32) (main_arg5 : FVec F S512 .f32) (main_arg6 : FVec F S1024x1280 .f32) (main_arg7 : FVec F S1024 .f32) (main_arg8 : FVec F S512x1024 .f32) (main_arg9 : FVec F S512 .f32) : IVec S_ 1 :=
  let main_v0 : FVec F S20000x1280 .f32 := Host.absf main_arg0
  let main_cst : FVec F S_ .f32 := constant S_ .f32 0x7F800000#32
  let main_v1 : FVec F S20000x1280 .f32 := broadcastInDim S20000x1280 ![] bcast_S_S20000x1280 main_cst
  let main_v2 : IVec S20000x1280 1 := cmpf .olt main_v0 main_v1
  let main_c : IVec S_ 1 := constantI S_ 1 1#1
  let main_v3 : IVec S_ 1 := (fun x v => Host.reduce IntOp.andi x v reducesTo_S20000x1280_S_d0_1 h_S_) main_v2 main_c
  let main_v4 : FVec F S1024x1280 .f32 := Host.absf main_arg2
  let main_cst_0 : FVec F S_ .f32 := constant S_ .f32 0x7F800000#32
  let main_v5 : FVec F S1024x1280 .f32 := broadcastInDim S1024x1280 ![] bcast_S_S1024x1280 main_cst_0
  let main_v6 : IVec S1024x1280 1 := cmpf .olt main_v4 main_v5
  let main_c_1 : IVec S_ 1 := constantI S_ 1 1#1
  let main_v7 : IVec S_ 1 := (fun x v => Host.reduce IntOp.andi x v reducesTo_S1024x1280_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg5 main_arg6 main_arg7 main_arg8 main_arg9 main_v13 main_v16
-- ==== Kernel.lean ====
abbrev S20000x1280 : Shape := ⟨2, ![20000, 1280]⟩
abbrev S3x4096 : Shape := ⟨2, ![3, 4096]⟩
abbrev S1024x1280 : Shape := ⟨2, ![1024, 1280]⟩
abbrev S1024 : Shape := ⟨1, ![1024]⟩
abbrev S512x1024 : Shape := ⟨2, ![512, 1024]⟩
abbrev S512 : Shape := ⟨1, ![512]⟩
abbrev S_ : Shape := ⟨0, ![]⟩
abbrev S3x4096x1 : Shape := ⟨3, ![3, 4096, 1]⟩
abbrev S3x4096x1280 : Shape := ⟨3, ![3, 4096, 1280]⟩
abbrev S3x4096x640x2 : Shape := ⟨4, ![3, 4096, 640, 2]⟩
abbrev S3x640 : Shape := ⟨2, ![3, 640]⟩
abbrev S3x1280 : Shape := ⟨2, ![3, 1280]⟩
abbrev S1280x1024 : Shape := ⟨2, ![1280, 1024]⟩
abbrev S3x1024 : Shape := ⟨2, ![3, 1024]⟩
abbrev S1x1024 : Shape := ⟨2, ![1, 1024]⟩
abbrev S1024x512 : Shape := ⟨2, ![1024, 512]⟩
abbrev S3x512 : Shape := ⟨2, ![3, 512]⟩
abbrev S1x512 : Shape := ⟨2, ![1, 512]⟩
abbrev S20000x512 : Shape := ⟨2, ![20000, 512]⟩
abbrev S1000x1280 : Shape := ⟨2, ![1000, 1280]⟩
abbrev S1000x512 : Shape := ⟨2, ![1000, 512]⟩
abbrev S1000x1024 : Shape := ⟨2, ![1000, 1024]⟩
abbrev S3x1x512 : Shape := ⟨3, ![3, 1, 512]⟩

abbrev nBuf : Space → Nat
  | .hbm => 44
  | .vmem => 8
  | .smem => 0
  | _ => 0

abbrev bufTy : (tb : Table) → Fin (tcTables nBuf tb) → BufTy
  | .hbm, ⟨0, _⟩ => ⟨S20000x1280, .f32⟩
  | .hbm, ⟨1, _⟩ => ⟨S3x4096, .i32⟩
  | .hbm, ⟨2, _⟩ => ⟨S1024x1280, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S1024x1280, .f32⟩
  | .hbm, ⟨7, _⟩ => ⟨S1024, .f32⟩
  | .hbm, ⟨8, _⟩ => ⟨S512x1024, .f32⟩
  | .hbm, ⟨9, _⟩ => ⟨S512, .f32⟩
  | .hbm, ⟨10, _⟩ => ⟨S_, .i32⟩
  | .hbm, ⟨11, _⟩ => ⟨S3x4096, .i32⟩
  | .hbm, ⟨12, _⟩ => ⟨S3x4096, .i1⟩
  | .hbm, ⟨13, _⟩ => ⟨S_, .i32⟩
  | .hbm, ⟨14, _⟩ => ⟨S3x4096, .i32⟩
  | .hbm, ⟨15, _⟩ => ⟨S3x4096, .i32⟩
  | .hbm, ⟨16, _⟩ => ⟨S3x4096, .i32⟩
  | .hbm, ⟨17, _⟩ => ⟨S3x4096x1, .i32⟩
  | .hbm, ⟨18, _⟩ => ⟨S3x4096x1280, .f32⟩
  | .hbm, ⟨19, _⟩ => ⟨S3x4096x640x2, .f32⟩
  | .hbm, ⟨20, _⟩ => ⟨S_, .f32⟩
  | .hbm, ⟨21, _⟩ => ⟨S3x640, .f32⟩
  | .hbm, ⟨22, _⟩ => ⟨S_, .f32⟩
  | .hbm, ⟨23, _⟩ => ⟨S3x640, .f32⟩
  | .hbm, ⟨24, _⟩ => ⟨S3x640, .f32⟩
  | .hbm, ⟨25, _⟩ => ⟨S_, .f32⟩
  | .hbm, ⟨26, _⟩ => ⟨S3x640, .f32⟩
  | .hbm, ⟨27, _⟩ => ⟨S3x1280, .f32⟩
  | .hbm, ⟨28, _⟩ => ⟨S1280x1024, .f32⟩
  | .hbm, ⟨29, _⟩ => ⟨S3x1024, .f32⟩
  | .hbm, ⟨30, _⟩ => ⟨S1x1024, .f32⟩
  | .hbm, ⟨31, _⟩ => ⟨S3x1024, .f32⟩
  | .hbm, ⟨32, _⟩ => ⟨S3x1024, .f32⟩
  | .hbm, ⟨33, _⟩ => ⟨S1024x512, .f32⟩
  | .hbm, ⟨34, _⟩ => ⟨S3x512, .f32⟩
  | .hbm, ⟨35, _⟩ => ⟨S1x512, .f32⟩
  | .hbm, ⟨36, _⟩ => ⟨S3x512, .f32⟩
  | .hbm, ⟨37, _⟩ => ⟨S3x512, .f32⟩
  | .hbm, ⟨38, _⟩ => ⟨S1024x1280, .bf16⟩
  | .hbm, ⟨39, _⟩ => ⟨S512x1024, .bf16⟩
  | .hbm, ⟨40, _⟩ => ⟨S1x1024, .f32⟩
  | .hbm, ⟨41, _⟩ => ⟨S1x512, .f32⟩
  | .hbm, ⟨42, _⟩ => ⟨S20000x512, .f32⟩
  | .hbm, ⟨43, _⟩ => ⟨S3x1x512, .f32⟩
  | .local _ .vmem, ⟨0, _⟩ => ⟨S1000x1280, .f32⟩
  | .local _ .vmem, ⟨1, _⟩ => ⟨S1000x1280, .f32⟩
  | .local _ .vmem, ⟨2, _⟩ => ⟨S1024x1280, .bf16⟩
  | .local _ .vmem, ⟨3, _⟩ => ⟨S1x1024, .f32⟩
  | .local _ .vmem, ⟨4, _⟩ => ⟨S512x1024, .bf16⟩
  | .local _ .vmem, ⟨5, _⟩ => ⟨S1x512, .f32⟩
  | .local _ .vmem, ⟨6, _⟩ => ⟨S1000x512, .f32⟩
  | .local _ .vmem, ⟨7, _⟩ => ⟨S1000x512, .f32⟩
  | _, _ => ⟨S20000x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S3x4096 : S_.BroadcastsInDim S3x4096 (![] : Fin 0 → Fin S3x4096.rank)
  bcast_S3x4096_S3x4096x1_0_1 : S3x4096.BroadcastsInDim S3x4096x1 (![0, 1] : Fin 2 → Fin S3x4096x1.rank)
  shapeCasts_S3x4096x1280_S3x4096x640x2 : S3x4096x1280.ShapeCasts S3x4096x640x2
  reducesTo_S3x4096x640x2_S3x640_d1_3 : S3x4096x640x2.ReducesTo [1, 3] S3x640
  h_S_ : 0 < S_.numel
  bcast_S_S3x640 : S_.BroadcastsInDim S3x640 (![] : Fin 0 → Fin S3x640.rank)
  concatenates_S3x640_S3x640_S3x1280_d1 : Shape.Concatenates [S3x640, S3x640] S3x1280 1
  transposes_S1024x1280_S1280x1024_1_0 : S1024x1280.Transposes [1, 0] S1280x1024
  bcast_S1024_S1x1024_1 : S1024.BroadcastsInDim S1x1024 (![1] : Fin 1 → Fin S1x1024.rank)
  bcast_S1x1024_S3x1024_0_1 : S1x1024.BroadcastsInDim S3x1024 (![0, 1] : Fin 2 → Fin S3x1024.rank)
  transposes_S512x1024_S1024x512_1_0 : S512x1024.Transposes [1, 0] S1024x512
  bcast_S512_S1x512_1 : S512.BroadcastsInDim S1x512 (![1] : Fin 1 → Fin S1x512.rank)
  bcast_S1x512_S3x512_0_1 : S1x512.BroadcastsInDim S3x512 (![0, 1] : Fin 2 → Fin S3x512.rank)
  bitsLt_bf16_f32 : FTy.bits .bf16 < FTy.bits .f32
  shapeCasts_S1024_S1x1024 : S1024.ShapeCasts S1x1024
  shapeCasts_S512_S1x512 : S512.ShapeCasts S1x512
  inb_S1000x1280_S1000x1280_0_0 : ∀ a, (![0, 0] : Fin 2 → Nat) a + S1000x1280.size a ≤ S1000x1280.size a
  h_S1000x1280 : 0 < S1000x1280.numel
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  transposes_S1024x1280_p1_0_S1280x1024 : S1024x1280.Transposes [1, 0] S1280x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  bcast_S3x512_S3x1x512_0_2 : S3x512.BroadcastsInDim S3x1x512 (![0, 2] : Fin 2 → Fin S3x1x512.rank)
  gather_S20000x1280_S3x4096x1_S3x4096x1280_2_0_n_n_0_2_11280_wf : GatherDims.WF S20000x1280 S3x4096x1 S3x4096x1280 [2] [0] [] [0] [] 2 ![1, 1280]
  dot_S3x1280_S1280x1024_S3x1024_1_0_0_1_n_n_wf : DotDims.WF S3x1280 S1280x1024 S3x1024 [1] [0] [0] [1] [] []
  dot_S3x1024_S1024x512_S3x512_1_0_0_1_n_n_wf : DotDims.WF S3x1024 S1024x512 S3x512 [1] [0] [0] [1] [] []
  dot_S1000x1280_S1280x1024_S1000x1024_1_0_0_1_n_n_wf : DotDims.WF S1000x1280 S1280x1024 S1000x1024 [1] [0] [0] [1] [] []
  dot_S1000x1024_S1024x512_S1000x512_1_0_0_1_n_n_wf : DotDims.WF S1000x1024 S1024x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1280.size a ≤ S20000x1280.size a
  hwx0_0 : ∀ i : grid0.Coords, EltTy.bits .f32 = 32 ∨ (Rect.block (s := S20000x1280) S1000x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1280.size a ≤ S1024x1280.size a
  hwx0_1 : ∀ i : grid0.Coords, EltTy.bits .bf16 = 32 ∨ (Rect.block (s := S1024x1280) S1024x1280.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S20000x512.size a
  hwx0_5 : ∀ i : grid0.Coords, EltTy.bits .f32 = 32 ∨ (Rect.block (s := S20000x512) S1000x512.size (cc0_transform_5 i) (hinb0_5 i)).WholeWords (EltTy.packing .f32)

variable [Facts₀]

def gather_S20000x1280_S3x4096x1_S3x4096x1280_2_0_n_n_0_2_11280 : GatherDims S20000x1280 S3x4096x1 S3x4096x1280 where
  offsetDims := [2]
  collapsedSliceDims := [0]
  operandBatchingDims := []
  startIndicesBatchingDims := []
  startIndexMap := [0]
  indexVectorDim := 2
  sliceSizes := ![1, 1280]
  wf := gather_S20000x1280_S3x4096x1_S3x4096x1280_2_0_n_n_0_2_11280_wf
def dot_S3x1280_S1280x1024_S3x1024_1_0_0_1_n_n : DotDims S3x1280 S1280x1024 S3x1024 where
  lhsContracting := [1]
  rhsContracting := [0]
  lhsNonContracting := [0]
  rhsNonContracting := [1]
  lhsBatch := []
  rhsBatch := []
  wf := dot_S3x1280_S1280x1024_S3x1024_1_0_0_1_n_n_wf
def dot_S3x1024_S1024x512_S3x512_1_0_0_1_n_n : DotDims S3x1024 S1024x512 S3x512 where
  lhsContracting := [1]
  rhsContracting := [0]
  lhsNonContracting := [0]
  rhsNonContracting := [1]
  lhsBatch := []
  rhsBatch := []
  wf := dot_S3x1024_S1024x512_S3x512_1_0_0_1_n_n_wf
def dot_S1000x1280_S1280x1024_S1000x1024_1_0_0_1_n_n : DotDims S1000x1280 S1280x1024 S1000x1024 where
  lhsContracting := [1]
  rhsContracting := [0]
  lhsNonContracting := [0]
  rhsNonContracting := [1]
  lhsBatch := []
  rhsBatch := []
  wf := dot_S1000x1280_S1280x1024_S1000x1024_1_0_0_1_n_n_wf
def dot_S1000x1024_S1024x512_S1000x512_1_0_0_1_n_n : DotDims S1000x1024 S1024x512 S1000x512 where
  lhsContracting := [1]
  rhsContracting := [0]
  lhsNonContracting := [0]
  rhsNonContracting := [1]
  lhsBatch := []
  rhsBatch := []
  wf := dot_S1000x1024_S1024x512_S1000x512_1_0_0_1_n_n_wf

abbrev win0_0 : Pipeline.Window sig grid0 :=
  Pipeline.Window.ofSpec (Memref.whole main_arg0) S1000x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S20000x1280 : Shape := ⟨2, ![20000, 1280]⟩
abbrev S3x4096 : Shape := ⟨2, ![3, 4096]⟩
abbrev S1024x1280 : Shape := ⟨2, ![1024, 1280]⟩
abbrev S1024 : Shape := ⟨1, ![1024]⟩
abbrev S512x1024 : Shape := ⟨2, ![512, 1024]⟩
abbrev S512 : Shape := ⟨1, ![512]⟩
abbrev S1280x1024 : Shape := ⟨2, ![1280, 1024]⟩
abbrev S20000x1024 : Shape := ⟨2, ![20000, 1024]⟩
abbrev S1x1024 : Shape := ⟨2, ![1, 1024]⟩
abbrev S1024x512 : Shape := ⟨2, ![1024, 512]⟩
abbrev S20000x512 : Shape := ⟨2, ![20000, 512]⟩
abbrev S1x512 : Shape := ⟨2, ![1, 512]⟩
abbrev S_ : Shape := ⟨0, ![]⟩
abbrev S3x4096x1 : Shape := ⟨3, ![3, 4096, 1]⟩
abbrev S3x4096x1280 : Shape := ⟨3, ![3, 4096, 1280]⟩
abbrev S3x4096x640x2 : Shape := ⟨4, ![3, 4096, 640, 2]⟩
abbrev S3x640 : Shape := ⟨2, ![3, 640]⟩
abbrev S3x1280 : Shape := ⟨2, ![3, 1280]⟩
abbrev S3x1024 : Shape := ⟨2, ![3, 1024]⟩
abbrev S3x512 : Shape := ⟨2, ![3, 512]⟩
abbrev S3x1x512 : Shape := ⟨3, ![3, 1, 512]⟩

abbrev nBuf : Space → Nat
  | .hbm => 49
  | .vmem => 0
  | .smem => 0
  | _ => 0

abbrev bufTy : (tb : Table) → Fin (tcTables nBuf tb) → BufTy
  | .hbm, ⟨0, _⟩ => ⟨S20000x1280, .f32⟩
  | .hbm, ⟨1, _⟩ => ⟨S3x4096, .i32⟩
  | .hbm, ⟨2, _⟩ => ⟨S1024x1280, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S1024x1280, .f32⟩
  | .hbm, ⟨7, _⟩ => ⟨S1024, .f32⟩
  | .hbm, ⟨8, _⟩ => ⟨S512x1024, .f32⟩
  | .hbm, ⟨9, _⟩ => ⟨S512, .f32⟩
  | .hbm, ⟨10, _⟩ => ⟨S1280x1024, .f32⟩
  | .hbm, ⟨11, _⟩ => ⟨S20000x1024, .f32⟩
  | .hbm, ⟨12, _⟩ => ⟨S1x1024, .f32⟩
  | .hbm, ⟨13, _⟩ => ⟨S20000x1024, .f32⟩
  | .hbm, ⟨14, _⟩ => ⟨S20000x1024, .f32⟩
  | .hbm, ⟨15, _⟩ => ⟨S1024x512, .f32⟩
  | .hbm, ⟨16, _⟩ => ⟨S20000x512, .f32⟩
  | .hbm, ⟨17, _⟩ => ⟨S1x512, .f32⟩
  | .hbm, ⟨18, _⟩ => ⟨S20000x512, .f32⟩
  | .hbm, ⟨19, _⟩ => ⟨S20000x512, .f32⟩
  | .hbm, ⟨20, _⟩ => ⟨S_, .i32⟩
  | .hbm, ⟨21, _⟩ => ⟨S3x4096, .i32⟩
  | .hbm, ⟨22, _⟩ => ⟨S3x4096, .i1⟩
  | .hbm, ⟨23, _⟩ => ⟨S_, .i32⟩
  | .hbm, ⟨24, _⟩ => ⟨S3x4096, .i32⟩
  | .hbm, ⟨25, _⟩ => ⟨S3x4096, .i32⟩
  | .hbm, ⟨26, _⟩ => ⟨S3x4096, .i32⟩
  | .hbm, ⟨27, _⟩ => ⟨S3x4096x1, .i32⟩
  | .hbm, ⟨28, _⟩ => ⟨S3x4096x1280, .f32⟩
  | .hbm, ⟨29, _⟩ => ⟨S3x4096x640x2, .f32⟩
  | .hbm, ⟨30, _⟩ => ⟨S_, .f32⟩
  | .hbm, ⟨31, _⟩ => ⟨S3x640, .f32⟩
  | .hbm, ⟨32, _⟩ => ⟨S_, .f32⟩
  | .hbm, ⟨33, _⟩ => ⟨S3x640, .f32⟩
  | .hbm, ⟨34, _⟩ => ⟨S3x640, .f32⟩
  | .hbm, ⟨35, _⟩ => ⟨S_, .f32⟩
  | .hbm, ⟨36, _⟩ => ⟨S3x640, .f32⟩
  | .hbm, ⟨37, _⟩ => ⟨S3x1280, .f32⟩
  | .hbm, ⟨38, _⟩ => ⟨S1280x1024, .f32⟩
  | .hbm, ⟨39, _⟩ => ⟨S3x1024, .f32⟩
  | .hbm, ⟨40, _⟩ => ⟨S1x1024, .f32⟩
  | .hbm, ⟨41, _⟩ => ⟨S3x1024, .f32⟩
  | .hbm, ⟨42, _⟩ => ⟨S3x1024, .f32⟩
  | .hbm, ⟨43, _⟩ => ⟨S1024x512, .f32⟩
  | .hbm, ⟨44, _⟩ => ⟨S3x512, .f32⟩
  | .hbm, ⟨45, _⟩ => ⟨S1x512, .f32⟩
  | .hbm, ⟨46, _⟩ => ⟨S3x512, .f32⟩
  | .hbm, ⟨47, _⟩ => ⟨S3x512, .f32⟩
  | .hbm, ⟨48, _⟩ => ⟨S3x1x512, .f32⟩
  | _, _ => ⟨S20000x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  transposes_S1024x1280_S1280x1024_1_0 : S1024x1280.Transposes [1, 0] S1280x1024
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  transposes_S512x1024_S1024x512_1_0 : S512x1024.Transposes [1, 0] S1024x512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S3x4096 : S_.BroadcastsInDim S3x4096 (![] : Fin 0 → Fin S3x4096.rank)
  bcast_S3x4096_S3x4096x1_0_1 : S3x4096.BroadcastsInDim S3x4096x1 (![0, 1] : Fin 2 → Fin S3x4096x1.rank)
  shapeCasts_S3x4096x1280_S3x4096x640x2 : S3x4096x1280.ShapeCasts S3x4096x640x2
  reducesTo_S3x4096x640x2_S3x640_d1_3 : S3x4096x640x2.ReducesTo [1, 3] S3x640
  h_S_ : 0 < S_.numel
  bcast_S_S3x640 : S_.BroadcastsInDim S3x640 (![] : Fin 0 → Fin S3x640.rank)
  concatenates_S3x640_S3x640_S3x1280_d1 : Shape.Concatenates [S3x640, S3x640] S3x1280 1
  bcast_S1x1024_S3x1024_0_1 : S1x1024.BroadcastsInDim S3x1024 (![0, 1] : Fin 2 → Fin S3x1024.rank)
  bcast_S1x512_S3x512_0_1 : S1x512.BroadcastsInDim S3x512 (![0, 1] : Fin 2 → Fin S3x512.rank)
  bcast_S3x512_S3x1x512_0_2 : S3x512.BroadcastsInDim S3x1x512 (![0, 2] : Fin 2 → Fin S3x1x512.rank)
  dot_S20000x1280_S1280x1024_S20000x1024_1_0_0_1_n_n_wf : DotDims.WF S20000x1280 S1280x1024 S20000x1024 [1] [0] [0] [1] [] []
  dot_S20000x1024_S1024x512_S20000x512_1_0_0_1_n_n_wf : DotDims.WF S20000x1024 S1024x512 S20000x512 [1] [0] [0] [1] [] []
  gather_S20000x1280_S3x4096x1_S3x4096x1280_2_0_n_n_0_2_11280_wf : GatherDims.WF S20000x1280 S3x4096x1 S3x4096x1280 [2] [0] [] [0] [] 2 ![1, 1280]
  dot_S3x1280_S1280x1024_S3x1024_1_0_0_1_n_n_wf : DotDims.WF S3x1280 S1280x1024 S3x1024 [1] [0] [0] [1] [] []
  dot_S3x1024_S1024x512_S3x512_1_0_0_1_n_n_wf : DotDims.WF S3x1024 S1024x512 S3x512 [1] [0] [0] [1] [] []

variable [Facts₀]

def dot_S20000x1280_S1280x1024_S20000x1024_1_0_0_1_n_n : DotDims S20000x1280 S1280x1024 S20000x1024 where
  lhsContracting := [1]
  rhsContracting := [0]
  lhsNonContracting := [0]
  rhsNonContracting := [1]
  lhsBatch := []
  rhsBatch := []
  wf := dot_S20000x1280_S1280x1024_S20000x1024_1_0_0_1_n_n_wf
def dot_S20000x1024_S1024x512_S20000x512_1_0_0_1_n_n : DotDims S20000x1024 S1024x512 S20000x512 where
  lhsContracting := [1]
  rhsContracting := [0]
  lhsNonContracting := [0]
  rhsNonContracting := [1]
  lhsBatch := []
  rhsBatch := []
  wf := dot_S20000x1024_S1024x512_S20000x512_1_0_0_1_n_n_wf
def gather_S20000x1280_S3x4096x1_S3x4096x1280_2_0_n_n_0_2_11280 : GatherDims S20000x1280 S3x4096x1 S3x4096x1280 where
  offsetDims := [2]
  collapsedSliceDims := [0]
  operandBatchingDims := []
  startIndicesBatchingDims := []
  startIndexMap := [0]
  indexVectorDim := 2
  sliceSizes := ![1, 1280]
  wf := gather_S20000x1280_S3x4096x1_S3x4096x1280_2_0_n_n_0_2_11280_wf
def dot_S3x1280_S1280x1024_S3x1024_1_0_0_1_n_n : DotDims S3x1280 S1280x1024 S3x1024 where
  lhsContracting := [1]
  rhsContracting := [0]
  lhsNonContracting := [0]
  rhsNonContracting := [1]
  lhsBatch := []
  rhsBatch := []
  wf := dot_S3x1280_S1280x1024_S3x1024_1_0_0_1_n_n_wf
def dot_S3x1024_S1024x512_S3x512_1_0_0_1_n_n : DotDims S3x1024 S1024x512 S3x512 where
  lhsContracting := [1]
  rhsContracting := [0]
  lhsNonContracting := [0]
  rhsNonContracting := [1]
  lhsBatch := []
  rhsBatch := []
  wf := dot_S3x1024_S1024x512_S3x512_1_0_0_1_n_n_wf

class Facts : Prop extends Facts₀ where

variable [Facts]
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.Cell.lean ====
/-
  The cell branch: one embedding per cell line.

  For each of the 3 cell lines the 4096 member rows of the [20000, 1280] embedding table are gathered (a negative index
  counts from the end: 20000 is added to it), the [3, 4096, 1280] array is read as [3, 4096, 640, 2], and over the members
  and the pairs of adjacent columns the mean (the sum divided by 8192) and the maximum (from −∞) are taken; the two
  [3, 640] arrays side by side, [3, 1280], go through two dense layers x · Wᵀ + b to [3, 512], which is returned as
  [3, 1, 512]. Kernel and reference both compute exactly this, operation by operation; it is stated here once, as a
  function of the six argument arrays it reads, so that the two runs meet in one term.
-/
import proofs.«173350_j50087908606361_2_alg».proof.Proof.Gen.ReferenceIdeal

noncomputable section

namespace Cert.Cell

open Cert.ReferenceIdeal Cert.ReferenceIdeal.Gen Idealize.ShloMosaic

variable {F : FTy → Type} [FloatOps F]

/-- The member rows of each cell line, columns paired: [3, 4096, 640, 2]. -/
def members (x0 : (⟨S20000x1280, .f32⟩ : BufTy).Contents (Elt F)) (x1 : (⟨S3x4096, .i32⟩ : BufTy).Contents (Elt F)) : (⟨S3x4096x640x2, .f32⟩ : BufTy).Contents (Elt F) :=
  shapeCast S3x4096x640x2 (Host.gather gather_S20000x1280_S3x4096x1_S3x4096x1280_2_0_n_n_0_2_11280 x0 (broadcastInDim S3x4096x1 ![0, 1] bcast_S3x4096_S3x4096x1_0_1 (select (cmpi .slt x1 (broadcastInDim S3x4096 ![] bcast_S_S3x4096 (constantI S_ 32 0#32))) (addi x1 (broadcastInDim S3x4096 ![] bcast_S_S3x4096 (constantI S_ 32 20000#32))) x1))) shapeCasts_S3x4096x1280_S3x4096x640x2

/-- Mean and maximum over members and column pairs, side by side: [3, 1280]. -/
def pooled (x0 : (⟨S20000x1280, .f32⟩ : BufTy).Contents (Elt F)) (x1 : (⟨S3x4096, .i32⟩ : BufTy).Contents (Elt F)) : (⟨S3x1280, .f32⟩ : BufTy).Contents (Elt F) :=
  concatenate S3x1280 1 [⟨S3x640, (Host.divf (Host.reduceAdd (members x0 x1) (constant S_ .f32 0x00000000#32) reducesTo_S3x4096x640x2_S3x640_d1_3 h_S_) (broadcastInDim S3x640 ![] bcast_S_S3x640 (constant S_ .f32 0x46000000#32)))⟩, ⟨S3x640, (Host.reduce FloatOps.maximumf (members x0 x1) (constant S_ .f32 0xFF800000#32) reducesTo_S3x4096x640x2_S3x640_d1_3 h_S_)⟩] concatenates_S3x640_S3x640_S3x1280_d1

/-- The pooled rows through the two dense layers: [3, 512]. -/
def pre (x0 : (⟨S20000x1280, .f32⟩ : BufTy).Contents (Elt F)) (x1 : (⟨S3x4096, .i32⟩ : BufTy).Contents (Elt F)) (x6 : (⟨S1024x1280, .f32⟩ : BufTy).Contents (Elt F)) (x7 : (⟨S1024, .f32⟩ : BufTy).Contents (Elt F))
    (x8 : (⟨S512x1024, .f32⟩ : BufTy).Contents (Elt F)) (x9 : (⟨S512, .f32⟩ : BufTy).Contents (Elt F)) : (⟨S3x512, .f32⟩ : BufTy).Contents (Elt F) :=
  addf (Host.dotGeneral dot_S3x1024_S1024x512_S3x512_1_0_0_1_n_n none (addf (Host.dotGeneral dot_S3x1280_S1280x1024_S3x1024_1_0_0_1_n_n none (pooled x0 x1) (transpose S1280x1024 [1, 0] x6 transposes_S1024x1280_S1280x1024_1_0)) (broadcastInDim S3x1024 ![0, 1] bcast_S1x1024_S3x1024_0_1 (broadcastInDim S1x1024 ![1] bcast_S1024_S1x1024_1 x7))) (transpose S1024x512 [1, 0] x8 transposes_S512x1024_S1024x512_1_0)) (broadcastInDim S3x512 ![0, 1] bcast_S1x512_S3x512_0_1 (broadcastInDim S1x512 ![1] bcast_S512_S1x512_1 x9))

/-- The same with a unit axis in the middle: [3, 1, 512]. -/
def emb (x0 : (⟨S20000x1280, .f32⟩ : BufTy).Contents (Elt F)) (x1 : (⟨S3x4096, .i32⟩ : BufTy).Contents (Elt F)) (x6 : (⟨S1024x1280, .f32⟩ : BufTy).Contents (Elt F)) (x7 : (⟨S1024, .f32⟩ : BufTy).Contents (Elt F))
    (x8 : (⟨S512x1024, .f32⟩ : BufTy).Contents (Elt F)) (x9 : (⟨S512, .f32⟩ : BufTy).Contents (Elt F)) : (⟨S3x1x512, .f32⟩ : BufTy).Contents (Elt F) :=
  broadcastInDim S3x1x512 ![0, 2] bcast_S3x512_S3x1x512_0_2 (pre x0 x1 x6 x7 x8 x9)

end Cert.Cell

end
-- ==== Proof.RefRun.lean ====
/-
  The reference's run.

  The reference has no kernel: its @main is a straight line of 39 host operations, each replacing its own result buffer by
  its function of its operands' contents. So every weakly fair execution terminates, the two result buffers end at the
  operations' composed functions of the argument arrays, and the arguments end unchanged. The first result is the protein
  branch, two dense layers over all 20000 rows (`protein`, the composed operations as they stand); the second is the
  cell branch, `Cell.emb`. Its pooled rows reach the first product through a two-operand concatenate, whose operands are
  read in place.
-/
import proofs.«173350_j50087908606361_2_alg».proof.Proof.Gen.ReferenceIdeal
import Idealize.ShloMosaic.Lib.StableHlo.Run
import proofs.«173350_j50087908606361_2_alg».proof.Proof.LibHostRead
import proofs.«173350_j50087908606361_2_alg».proof.Proof.Cell

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.HostRead

variable {F : FTy → Type} [FloatOps F]

/-- The protein branch as the host composes it: x · W₁ᵀ + b₁, then · W₂ᵀ + b₂, each bias spread to a row and over the rows. -/
def protein (x0 : (⟨S20000x1280, .f32⟩ : BufTy).Contents (Elt F)) (x2 : (⟨S1024x1280, .f32⟩ : BufTy).Contents (Elt F)) (x3 : (⟨S1024, .f32⟩ : BufTy).Contents (Elt F))
    (x4 : (⟨S512x1024, .f32⟩ : BufTy).Contents (Elt F)) (x5 : (⟨S512, .f32⟩ : BufTy).Contents (Elt F)) : (⟨S20000x512, .f32⟩ : BufTy).Contents (Elt F) :=
  addf (Host.dotGeneral dot_S20000x1024_S1024x512_S20000x512_1_0_0_1_n_n none (addf (Host.dotGeneral dot_S20000x1280_S1280x1024_S20000x1024_1_0_0_1_n_n none x0 (transpose S1280x1024 [1, 0] x2 transposes_S1024x1280_S1280x1024_1_0)) (broadcastInDim S20000x1024 ![0, 1] bcast_S1x1024_S20000x1024_0_1 (broadcastInDim S1x1024 ![1] bcast_S1024_S1x1024_1 x3))) (transpose S1024x512 [1, 0] x4 transposes_S512x1024_S1024x512_1_0)) (broadcastInDim S20000x512 ![0, 1] bcast_S1x512_S20000x512_0_1 (broadcastInDim S1x512 ![1] bcast_S512_S1x512_1 x5))

/-- @main's 39 operations, in order: the protein branch (10), then the cell branch (29). -/
abbrev ops : List (HloOp τ sig (Elt F)) :=
  [ unary main_arg2 main_v0 ((transpose S1280x1024 [1, 0] · transposes_S1024x1280_S1280x1024_1_0) : (⟨S1024x1280, .f32⟩ : BufTy).Contents (Elt F) → (⟨S1280x1024, .f32⟩ : BufTy).Contents (Elt F)),
    binary main_arg0 main_v0 main_v1 ((fun l r => Host.dotGeneral dot_S20000x1280_S1280x1024_S20000x1024_1_0_0_1_n_n none l r) : (⟨S20000x1280, .f32⟩ : BufTy).Contents (Elt F) → (⟨S1280x1024, .f32⟩ : BufTy).Contents (Elt F) → (⟨S20000x1024, .f32⟩ : BufTy).Contents (Elt F)),
    unary main_arg3 main_v2 (broadcastInDim S1x1024 ![1] bcast_S1024_S1x1024_1 : (⟨S1024, .f32⟩ : BufTy).Contents (Elt F) → (⟨S1x1024, .f32⟩ : BufTy).Contents (Elt F)),
    unary main_v2 main_v3 (broadcastInDim S20000x1024 ![0, 1] bcast_S1x1024_S20000x1024_0_1 : (⟨S1x1024, .f32⟩ : BufTy).Contents (Elt F) → (⟨S20000x1024, .f32⟩ : BufTy).Contents (Elt F)),
    binary main_v1 main_v3 main_v4 (addf : (⟨S20000x1024, .f32⟩ : BufTy).Contents (Elt F) → (⟨S20000x1024, .f32⟩ : BufTy).Contents (Elt F) → (⟨S20000x1024, .f32⟩ : BufTy).Contents (Elt F)),
    unary main_arg4 main_v5 ((transpose S1024x512 [1, 0] · transposes_S512x1024_S1024x512_1_0) : (⟨S512x1024, .f32⟩ : BufTy).Contents (Elt F) → (⟨S1024x512, .f32⟩ : BufTy).Contents (Elt F)),
    binary main_v4 main_v5 main_v6 ((fun l r => Host.dotGeneral dot_S20000x1024_S1024x512_S20000x512_1_0_0_1_n_n none l r) : (⟨S20000x1024, .f32⟩ : BufTy).Contents (Elt F) → (⟨S1024x512, .f32⟩ : BufTy).Contents (Elt F) → (⟨S20000x512, .f32⟩ : BufTy).Contents (Elt F)),
    unary main_arg5 main_v7 (broadcastInDim S1x512 ![1] bcast_S512_S1x512_1 : (⟨S512, .f32⟩ : BufTy).Contents (Elt F) → (⟨S1x512, .f32⟩ : BufTy).Contents (Elt F)),
    unary main_v7 main_v8 (broadcastInDim S20000x512 ![0, 1] bcast_S1x512_S20000x512_0_1 : (⟨S1x512, .f32⟩ : BufTy).Contents (Elt F) → (⟨S20000x512, .f32⟩ : BufTy).Contents (Elt F)),
    binary main_v6 main_v8 main_v9 (addf : (⟨S20000x512, .f32⟩ : BufTy).Contents (Elt F) → (⟨S20000x512, .f32⟩ : BufTy).Contents (Elt F) → (⟨S20000x512, .f32⟩ : BufTy).Contents (Elt F)),
    nullary main_c (constantI S_ 32 0#32),
    unary main_c main_v10 (broadcastInDim S3x4096 ![] bcast_S_S3x4096 : (⟨S_, .i32⟩ : BufTy).Contents (Elt F) → (⟨S3x4096, .i32⟩ : BufTy).Contents (Elt F)),
    binary main_arg1 main_v10 main_v11 (cmpi .slt : (⟨S3x4096, .i32⟩ : BufTy).Contents (Elt F) → (⟨S3x4096, .i32⟩ : BufTy).Contents (Elt F) → (⟨S3x4096, .i1⟩ : BufTy).Contents (Elt F)),
    nullary main_c_0 (constantI S_ 32 20000#32),
    unary main_c_0 main_v12 (broadcastInDim S3x4096 ![] bcast_S_S3x4096 : (⟨S_, .i32⟩ : BufTy).Contents (Elt F) → (⟨S3x4096, .i32⟩ : BufTy).Contents (Elt F)),
    binary main_arg1 main_v12 main_v13 (addi : (⟨S3x4096, .i32⟩ : BufTy).Contents (Elt F) → (⟨S3x4096, .i32⟩ : BufTy).Contents (Elt F) → (⟨S3x4096, .i32⟩ : BufTy).Contents (Elt F)),
    ternary main_v11 main_v13 main_arg1 main_v14 (select : (⟨S3x4096, .i1⟩ : BufTy).Contents (Elt F) → (⟨S3x4096, .i32⟩ : BufTy).Contents (Elt F) → (⟨S3x4096, .i32⟩ : BufTy).Contents (Elt F) → (⟨S3x4096, .i32⟩ : BufTy).Contents (Elt F)),
    unary main_v14 main_v15 (broadcastInDim S3x4096x1 ![0, 1] bcast_S3x4096_S3x4096x1_0_1 : (⟨S3x4096, .i32⟩ : BufTy).Contents (Elt F) → (⟨S3x4096x1, .i32⟩ : BufTy).Contents (Elt F)),
    binary main_arg0 main_v15 main_v16 ((fun x i => Host.gather gather_S20000x1280_S3x4096x1_S3x4096x1280_2_0_n_n_0_2_11280 x i) : (⟨S20000x1280, .f32⟩ : BufTy).Contents (Elt F) → (⟨S3x4096x1, .i32⟩ : BufTy).Contents (Elt F) → (⟨S3x4096x1280, .f32⟩ : BufTy).Contents (Elt F)),
    reshape main_v16 main_v17 rfl shapeCasts_S3x4096x1280_S3x4096x640x2,
    nullary main_cst (constant S_ .f32 0x00000000#32),
    binary main_v17 main_cst main_v18 ((fun x v => Host.reduceAdd x v reducesTo_S3x4096x640x2_S3x640_d1_3 h_S_) : (⟨S3x4096x640x2, .f32⟩ : BufTy).Contents (Elt F) → (⟨S_, .f32⟩ : BufTy).Contents (Elt F) → (⟨S3x640, .f32⟩ : BufTy).Contents (Elt F)),
    nullary main_cst_1 (constant S_ .f32 0x46000000#32),
    unary main_cst_1 main_v19 (broadcastInDim S3x640 ![] bcast_S_S3x640 : (⟨S_, .f32⟩ : BufTy).Contents (Elt F) → (⟨S3x640, .f32⟩ : BufTy).Contents (Elt F)),
    binary main_v18 main_v19 main_v20 (Host.divf : (⟨S3x640, .f32⟩ : BufTy).Contents (Elt F) → (⟨S3x640, .f32⟩ : BufTy).Contents (Elt F) → (⟨S3x640, .f32⟩ : BufTy).Contents (Elt F)),
    nullary main_cst_2 (constant S_ .f32 0xFF800000#32),
    binary main_v17 main_cst_2 main_v21 ((fun x v => Host.reduce FloatOps.maximumf x v reducesTo_S3x4096x640x2_S3x640_d1_3 h_S_) : (⟨S3x4096x640x2, .f32⟩ : BufTy).Contents (Elt F) → (⟨S_, .f32⟩ : BufTy).Contents (Elt F) → (⟨S3x640, .f32⟩ : BufTy).Contents (Elt F)),
    binary main_v20 main_v21 main_v22 ((fun a b => concatenate S3x1280 1 [⟨S3x640, a⟩, ⟨S3x640, b⟩] concatenates_S3x640_S3x640_S3x1280_d1) : (⟨S3x640, .f32⟩ : BufTy).Contents (Elt F) → (⟨S3x640, .f32⟩ : BufTy).Contents (Elt F) → (⟨S3x1280, .f32⟩ : BufTy).Contents (Elt F)),
    unary main_arg6 main_v23 ((transpose S1280x1024 [1, 0] · transposes_S1024x1280_S1280x1024_1_0) : (⟨S1024x1280, .f32⟩ : BufTy).Contents (Elt F) → (⟨S1280x1024, .f32⟩ : BufTy).Contents (Elt F)),
    binary main_v22 main_v23 main_v24 ((fun l r => Host.dotGeneral dot_S3x1280_S1280x1024_S3x1024_1_0_0_1_n_n none l r) : (⟨S3x1280, .f32⟩ : BufTy).Contents (Elt F) → (⟨S1280x1024, .f32⟩ : BufTy).Contents (Elt F) → (⟨S3x1024, .f32⟩ : BufTy).Contents (Elt F)),
    unary main_arg7 main_v25 (broadcastInDim S1x1024 ![1] bcast_S1024_S1x1024_1 : (⟨S1024, .f32⟩ : BufTy).Contents (Elt F) → (⟨S1x1024, .f32⟩ : BufTy).Contents (Elt F)),
    unary main_v25 main_v26 (broadcastInDim S3x1024 ![0, 1] bcast_S1x1024_S3x1024_0_1 : (⟨S1x1024, .f32⟩ : BufTy).Contents (Elt F) → (⟨S3x1024, .f32⟩ : BufTy).Contents (Elt F)),
    binary main_v24 main_v26 main_v27 (addf : (⟨S3x1024, .f32⟩ : BufTy).Contents (Elt F) → (⟨S3x1024, .f32⟩ : BufTy).Contents (Elt F) → (⟨S3x1024, .f32⟩ : BufTy).Contents (Elt F)),
    unary main_arg8 main_v28 ((transpose S1024x512 [1, 0] · transposes_S512x1024_S1024x512_1_0) : (⟨S512x1024, .f32⟩ : BufTy).Contents (Elt F) → (⟨S1024x512, .f32⟩ : BufTy).Contents (Elt F)),
    binary main_v27 main_v28 main_v29 ((fun l r => Host.dotGeneral dot_S3x1024_S1024x512_S3x512_1_0_0_1_n_n none l r) : (⟨S3x1024, .f32⟩ : BufTy).Contents (Elt F) → (⟨S1024x512, .f32⟩ : BufTy).Contents (Elt F) → (⟨S3x512, .f32⟩ : BufTy).Contents (Elt F)),
    unary main_arg9 main_v30 (broadcastInDim S1x512 ![1] bcast_S512_S1x512_1 : (⟨S512, .f32⟩ : BufTy).Contents (Elt F) → (⟨S1x512, .f32⟩ : BufTy).Contents (Elt F)),
    unary main_v30 main_v31 (broadcastInDim S3x512 ![0, 1] bcast_S1x512_S3x512_0_1 : (⟨S1x512, .f32⟩ : BufTy).Contents (Elt F) → (⟨S3x512, .f32⟩ : BufTy).Contents (Elt F)),
    binary main_v29 main_v31 main_v32 (addf : (⟨S3x512, .f32⟩ : BufTy).Contents (Elt F) → (⟨S3x512, .f32⟩ : BufTy).Contents (Elt F) → (⟨S3x512, .f32⟩ : BufTy).Contents (Elt F)),
    unary main_v32 main_v33 (broadcastInDim S3x1x512 ![0, 2] bcast_S3x512_S3x1x512_0_2 : (⟨S3x512, .f32⟩ : BufTy).Contents (Elt F) → (⟨S3x1x512, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., binary_bufs_sub .., nullary_bufs_sub .., unary_bufs_sub .., binary_bufs_sub .., nullary_bufs_sub .., binary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub ..⟩

set_option maxHeartbeats 2000000 in
/-- Every weakly fair execution of @main terminates with the first result at `protein` and the second at `Cell.emb` of
    the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = protein (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v33) = Cert.Cell.emb (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v9).trans (by unfold protein; after_results_simp <;> rfl),
      (h c main_v33).trans (by unfold Cert.Cell.emb Cert.Cell.pre Cert.Cell.pooled Cert.Cell.members; read_results <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.HandRun

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibHostLin.lean ====
/-
  The host's dense layer, read at an entry.

  On the extended reals the host computes a dense layer of an [N, K] array x as max (x · W + b, 0): a product of plain
  dimension numbers, the bias vector b : [C] spread first to a row [1, C] and then over the N rows, and the maximum with
  the zero scalar spread over [N, C]. At the entry (p, q) that is max ((∑ k, x (p, k) · W (k, q)) + b q) 0; without the
  maximum, (∑ k, x (p, k) · W (k, q)) + b q. A bias vector reshaped to a row has entry (0, q) equal to entry q. The
  extents are arbitrary.
-/
import Idealize.ShloMosaic.Lib.ValueLayout
import Idealize.ShloMosaic.Lib.Pipeline.Value
import proofs.«173350_j50087908606361_2_alg».proof.Proof.LibPlainDot

noncomputable section

namespace HostLin

open Idealize.ShloMosaic Idealize.ShloMosaic.ValueIdx
open scoped BigOperators

variable {α : Type}

/-- A vector spread to a row and then over N rows: entry (p, q) is entry q. -/
theorem bias_bcast_apply {N C : Nat}
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (b : (⟨1, ![C]⟩ : Shape).Idx → α) (p : Fin N) (q : Fin C) :
    broadcastInDim ⟨2, ![N, C]⟩ ![0, 1] h2 (broadcastInDim ⟨2, ![1, C]⟩ ![1] h1 b) (ix2 p q) = b (ix1 q) := by
  rw [broadcastInDim_apply ![0, 1] h2 _ (ix2 p q) (ix2 (0 : Fin 1) q) (fun a => by
    match a with
    | ⟨0, _⟩ => simp [ix2]
    | ⟨1, _⟩ =>
      show q.val = if C = 1 then 0 else q.val
      split_ifs with hC
      · subst hC; omega
      · rfl)]
  rw [broadcastInDim_apply ![1] h1 b (ix2 (0 : Fin 1) q) (ix1 q) (fun a => by
    match a with
    | ⟨0, _⟩ =>
      show q.val = if C = 1 then 0 else q.val
      split_ifs with hC
      · subst hC; omega
      · rfl)]

/-- A scalar spread over a shape is that scalar at every index. -/
theorem scalar_bcast_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply ![] h y i ix0 (fun a => a.elim0)

/-- A vector reshaped to a row: entry (0, q) is entry q. -/
theorem row_apply {C : Nat} (h : (⟨1, ![C]⟩ : Shape).ShapeCasts ⟨2, ![1, C]⟩) (b : (⟨1, ![C]⟩ : Shape).Idx → α) (q : Fin C) :
    shapeCast ⟨2, ![1, C]⟩ b h (ix2 (0 : Fin 1) q) = b (ix1 q) :=
  shapeCast_a_1a_apply b h 0 q

/-- The host's affine layer x · W + b at (p, q). -/
theorem affine_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (x : FVec Ideal ⟨2, ![N, K]⟩ .f32) (W : FVec Ideal ⟨2, ![K, C]⟩ .f32) (b : FVec Ideal ⟨1, ![C]⟩ .f32) (p : Fin N) (q : Fin C) :
    addf (Host.dotGeneral d none x W) (broadcastInDim ⟨2, ![N, C]⟩ ![0, 1] h2 (broadcastInDim ⟨2, ![1, C]⟩ ![1] h1 b)) (ix2 p q)
      = (∑ k : Fin K, x (ix2 p k) * W (ix2 k q)) + b (ix1 q) := by
  subst hd
  rw [addf_apply, bias_bcast_apply]
  exact congrArg (· + b (ix1 q)) (Cert.PlainDot.dotGeneral_apply none .single x W p q)

/-- The host's dense layer max (x · W + b, 0) at (p, q). -/
theorem relu_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (x : FVec Ideal ⟨2, ![N, K]⟩ .f32) (W : FVec Ideal ⟨2, ![K, C]⟩ .f32) (b : FVec Ideal ⟨1, ![C]⟩ .f32) (p : Fin N) (q : Fin C) :
    maximumf (addf (Host.dotGeneral d none x W) (broadcastInDim ⟨2, ![N, C]⟩ ![0, 1] h2 (broadcastInDim ⟨2, ![1, C]⟩ ![1] h1 b)))
        (broadcastInDim ⟨2, ![N, C]⟩ ![] h0 (constant (F := Ideal) ⟨0, ![]⟩ .f32 0x00000000#32)) (ix2 p q)
      = max ((∑ k : Fin K, x (ix2 p k) * W (ix2 k q)) + b (ix1 q)) 0 := by
  rw [maximumf_apply, affine_apply d hd h1 h2, scalar_bcast_apply, constant_apply]
  exact congrArg (max _) Ideal.ofBits_zero_f32

end HostLin

end
-- ==== Proof.LibDenseLayer.lean ====
/-
  A dense layer on the extended reals, and two of them in a row.

  For x : [R, K], a weight matrix W : [C, K] stored one row per output channel, and a bias b : [C], the layer is
      layer x W b (p, q) = (∑ k, x (p, k) · W (q, k)) + b q,
  that is x · Wᵀ + b. Two layers with no activation between them are  mlp x W₁ b₁ W₂ b₂ = layer (layer x W₁ b₁) W₂ b₂.

  Three readings of it, for any extents:
  * the host's  addf (dot_general x (transpose W)) (b spread to a row, the row spread over the R rows)  is  layer x W b;
  * a kernel tile  addf (matmul x (transpose W) 0) (a bias row [1, C] spread over the R rows)  at (p, q) is the same sum with
    the bias read in the row's one line; the operands may be in any float format, a change of format being the identity on
    the extended reals;
  * row p of the layer depends on row p of x only, so a block of rows of x gives the same block of rows of the layer.
  No law of arithmetic is used: the sums are the same sums, term by term.
-/
import Idealize.ShloMosaic.Lib.ValueLayout
import Idealize.ShloMosaic.Lib.Pipeline.Value
import proofs.«173350_j50087908606361_2_alg».proof.Proof.LibPlainDot
import proofs.«173350_j50087908606361_2_alg».proof.Proof.LibHostLin

noncomputable section

namespace Cert.Mlp

open Idealize.ShloMosaic Idealize.ShloMosaic.ValueIdx
open scoped BigOperators

variable {R K H C : Nat}

/-- The dense layer x · Wᵀ + b, entry by entry. -/
def layer (x : (⟨2, ![R, K]⟩ : Shape).Idx → EReal) (W : (⟨2, ![C, K]⟩ : Shape).Idx → EReal)
    (b : (⟨1, ![C]⟩ : Shape).Idx → EReal) : (⟨2, ![R, C]⟩ : Shape).Idx → EReal :=
  fun i => (∑ k : Fin K, x (ix2 (i 0) k) * W (ix2 (i 1) k)) + b (ix1 (i 1))

theorem layer_apply (x : (⟨2, ![R, K]⟩ : Shape).Idx → EReal) (W : (⟨2, ![C, K]⟩ : Shape).Idx → EReal)
    (b : (⟨1, ![C]⟩ : Shape).Idx → EReal) (p : Fin R) (q : Fin C) :
    layer x W b (ix2 p q) = (∑ k : Fin K, x (ix2 p k) * W (ix2 q k)) + b (ix1 q) := rfl

/-- Two dense layers, nothing between them. -/
def mlp (x : (⟨2, ![R, K]⟩ : Shape).Idx → EReal) (W₁ : (⟨2, ![H, K]⟩ : Shape).Idx → EReal) (b₁ : (⟨1, ![H]⟩ : Shape).Idx → EReal)
    (W₂ : (⟨2, ![C, H]⟩ : Shape).Idx → EReal) (b₂ : (⟨1, ![C]⟩ : Shape).Idx → EReal) : (⟨2, ![R, C]⟩ : Shape).Idx → EReal :=
  layer (layer x W₁ b₁) W₂ b₂

theorem mlp_apply (x : (⟨2, ![R, K]⟩ : Shape).Idx → EReal) (W₁ : (⟨2, ![H, K]⟩ : Shape).Idx → EReal) (b₁ : (⟨1, ![H]⟩ : Shape).Idx → EReal)
    (W₂ : (⟨2, ![C, H]⟩ : Shape).Idx → EReal) (b₂ : (⟨1, ![C]⟩ : Shape).Idx → EReal) (p : Fin R) (q : Fin C) :
    mlp x W₁ b₁ W₂ b₂ (ix2 p q)
      = (∑ h : Fin H, ((∑ k : Fin K, x (ix2 p k) * W₁ (ix2 h k)) + b₁ (ix1 h)) * W₂ (ix2 q h)) + b₂ (ix1 q) := rfl

/-- The host's layer: the product with the transposed weights, plus the bias spread to a row and then over the rows. -/
theorem host_layer (d : DotDims ⟨2, ![R, K]⟩ ⟨2, ![K, C]⟩ ⟨2, ![R, C]⟩) (hd : d = DotDims.plain R K C)
    (hT : (⟨2, ![C, K]⟩ : Shape).Transposes [1, 0] ⟨2, ![K, C]⟩)
    (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2))
    (x : FVec Ideal ⟨2, ![R, K]⟩ .f32) (W : FVec Ideal ⟨2, ![C, K]⟩ .f32) (b : FVec Ideal ⟨1, ![C]⟩ .f32) :
    addf (Host.dotGeneral d none x (transpose ⟨2, ![K, C]⟩ [1, 0] W hT))
        (broadcastInDim ⟨2, ![R, C]⟩ ![0, 1] h2 (broadcastInDim ⟨2, ![1, C]⟩ ![1] h1 b))
      = layer x W b := by
  funext i
  obtain ⟨p, q, rfl⟩ : ∃ (p : Fin R) (q : Fin C), i = ix2 p q := ⟨i 0, i 1, eq_ix2 i⟩
  rw [HostLin.affine_apply d hd h1 h2, layer_apply]
  refine congrArg (· + b (ix1 q)) (Finset.sum_congr rfl fun k _ => ?_)
  rw [transpose_ix2_apply]

/-- One kernel tile of a layer at (p, q): the product with the transposed weights into the zero accumulator, plus a bias
    row spread over the tile's rows. -/
theorem tile_layer {φ₁ φ₂ : FTy} (d : DotDims ⟨2, ![R, K]⟩ ⟨2, ![K, C]⟩ ⟨2, ![R, C]⟩) (hd : d = DotDims.plain R K C)
    (hT : (⟨2, ![C, K]⟩ : Shape).Transposes [1, 0] ⟨2, ![K, C]⟩)
    (hB : (⟨2, ![1, C]⟩ : Shape).Broadcasts ⟨2, ![R, C]⟩)
    (x : FVec Ideal ⟨2, ![R, K]⟩ φ₁) (W : FVec Ideal ⟨2, ![C, K]⟩ φ₂) (b : FVec Ideal ⟨2, ![1, C]⟩ .f32) (p : Fin R) (q : Fin C) :
    addf (matmul d none x (transpose ⟨2, ![K, C]⟩ [1, 0] W hT) (constant ⟨2, ![R, C]⟩ .f32 0x00000000#32))
        (broadcastTo ⟨2, ![R, C]⟩ b hB) (ix2 p q)
      = (∑ k : Fin K, x (ix2 p k) * W (ix2 q k)) + b (ix2 (0 : Fin 1) q) := by
  subst hd
  rw [addf_apply, broadcastTo_1b_ab_apply]
  refine congrArg (· + b (ix2 (0 : Fin 1) q)) ?_
  refine (Ideal.matmul_constant_zero_apply (DotDims.plain R K C) none x _ (ix2 p q)).trans ?_
  refine (Cert.PlainDot.contraction_eq (M := R) (K := K) (N := C) x _ p q).trans ?_
  refine Finset.sum_congr rfl fun k _ => ?_
  rw [transpose_ix2_apply]

/-- Two kernel tiles in a row at (p, q): the second one's left operand is the first one's result (in any float format). -/
theorem tile_mlp {φ₁ φ₂ φ₃ φ₄ : FTy}
    (d₁ : DotDims ⟨2, ![R, K]⟩ ⟨2, ![K, H]⟩ ⟨2, ![R, H]⟩) (hd₁ : d₁ = DotDims.plain R K H)
    (d₂ : DotDims ⟨2, ![R, H]⟩ ⟨2, ![H, C]⟩ ⟨2, ![R, C]⟩) (hd₂ : d₂ = DotDims.plain R H C)
    (hT₁ : (⟨2, ![H, K]⟩ : Shape).Transposes [1, 0] ⟨2, ![K, H]⟩) (hT₂ : (⟨2, ![C, H]⟩ : Shape).Transposes [1, 0] ⟨2, ![H, C]⟩)
    (hB₁ : (⟨2, ![1, H]⟩ : Shape).Broadcasts ⟨2, ![R, H]⟩) (hB₂ : (⟨2, ![1, C]⟩ : Shape).Broadcasts ⟨2, ![R, C]⟩)
    (x : FVec Ideal ⟨2, ![R, K]⟩ φ₁) (W₁ : FVec Ideal ⟨2, ![H, K]⟩ φ₂) (b₁ : FVec Ideal ⟨2, ![1, H]⟩ .f32)
    (W₂ : FVec Ideal ⟨2, ![C, H]⟩ φ₄) (b₂ : FVec Ideal ⟨2, ![1, C]⟩ .f32)
    (y : FVec Ideal ⟨2, ![R, H]⟩ φ₃)
    (hy : ∀ i, y i = addf (matmul d₁ none x (transpose ⟨2, ![K, H]⟩ [1, 0] W₁ hT₁) (constant ⟨2, ![R, H]⟩ .f32 0x00000000#32))
        (broadcastTo ⟨2, ![R, H]⟩ b₁ hB₁) i)
    (p : Fin R) (q : Fin C) :
    addf (matmul d₂ none y (transpose ⟨2, ![H, C]⟩ [1, 0] W₂ hT₂) (constant ⟨2, ![R, C]⟩ .f32 0x00000000#32))
        (broadcastTo ⟨2, ![R, C]⟩ b₂ hB₂) (ix2 p q)
      = (∑ h : Fin H, ((∑ k : Fin K, x (ix2 p k) * W₁ (ix2 h k)) + b₁ (ix2 (0 : Fin 1) h)) * W₂ (ix2 q h)) + b₂ (ix2 (0 : Fin 1) q) := by
  refine (tile_layer d₂ hd₂ hT₂ hB₂ y W₂ b₂ p q).trans ?_
  refine congrArg (· + b₂ (ix2 (0 : Fin 1) q)) (Finset.sum_congr rfl fun h _ => ?_)
  rw [hy, tile_layer d₁ hd₁ hT₁ hB₁ x W₁ b₁ p h]

/-- A block of rows of x gives the same block of rows of the layer: row r of the layer of x' is row f r of the layer of x
    when row r of x' is row f r of x. -/
theorem layer_rows {R' : Nat} (f : Fin R' → Fin R) (x : (⟨2, ![R, K]⟩ : Shape).Idx → EReal) (x' : (⟨2, ![R', K]⟩ : Shape).Idx → EReal)
    (hx : ∀ r k, x' (ix2 r k) = x (ix2 (f r) k)) (W : (⟨2, ![C, K]⟩ : Shape).Idx → EReal) (b : (⟨1, ![C]⟩ : Shape).Idx → EReal)
    (r : Fin R') (q : Fin C) : layer x' W b (ix2 r q) = layer x W b (ix2 (f r) q) := by
  rw [layer_apply, layer_apply]
  exact congrArg (· + b (ix1 q)) (Finset.sum_congr rfl fun k _ => by rw [hx])

end Cert.Mlp

end
-- ==== Proof.RefValue.lean ====
/-
  The reference's protein branch is two dense layers.

  The host computes x · W₁ᵀ + b₁ and then · W₂ᵀ + b₂, each product with the weights transposed first and each bias spread to
  a row and then over the 20000 rows. Layer by layer that is `Mlp.layer`, so the whole is `Mlp.mlp` of the five argument
  arrays: the function the kernel's result holds.
-/
import Idealize.ShloMosaic.PureOps.Ideal
import proofs.«173350_j50087908606361_2_alg».proof.Proof.RefRun
import proofs.«173350_j50087908606361_2_alg».proof.Proof.LibDenseLayer

noncomputable section

namespace Cert.ReferenceIdeal.HandRun

open Cert.ReferenceIdeal Cert.ReferenceIdeal.Gen Idealize.ShloMosaic

theorem protein_eq (x0 : (⟨S20000x1280, .f32⟩ : BufTy).Contents (Elt Ideal)) (x2 : (⟨S1024x1280, .f32⟩ : BufTy).Contents (Elt Ideal))
    (x3 : (⟨S1024, .f32⟩ : BufTy).Contents (Elt Ideal)) (x4 : (⟨S512x1024, .f32⟩ : BufTy).Contents (Elt Ideal))
    (x5 : (⟨S512, .f32⟩ : BufTy).Contents (Elt Ideal)) :
    protein (F := Ideal) x0 x2 x3 x4 x5 = Cert.Mlp.mlp (R := 20000) (K := 1280) (H := 1024) (C := 512) x0 x2 x3 x4 x5 := by
  unfold protein Cert.Mlp.mlp
  rw [Cert.Mlp.host_layer (R := 20000) (K := 1280) (C := 1024) dot_S20000x1280_S1280x1024_S20000x1024_1_0_0_1_n_n rfl
    transposes_S1024x1280_S1280x1024_1_0 bcast_S1024_S1x1024_1 bcast_S1x1024_S20000x1024_0_1 x0 x2 x3]
  exact Cert.Mlp.host_layer (R := 20000) (K := 1024) (C := 512) dot_S20000x1024_S1024x512_S20000x512_1_0_0_1_n_n rfl
    transposes_S512x1024_S1024x512_1_0 bcast_S512_S1x512_1 bcast_S1x512_S20000x512_0_1 _ x4 x5

end Cert.ReferenceIdeal.HandRun

end
-- ==== Proof.KernelHost.lean ====
/-
  The kernel program's host operations, read.

  Before the pallas_call the kernel's @main computes the whole cell branch (to `main_v22`, [3, 512]) and prepares the
  protein branch's operands: the two weight matrices in a narrower float format (on the extended reals a change of
  format is the identity, so these are the matrices themselves) and the two bias vectors reshaped to rows [1, 1024] and
  [1, 512]. After the call one operation gives the cell branch its unit axis. Each of these buffers is read here as a
  function of the argument arrays; the cell branch is the reference's, operation by operation (`Cell.pre`, `Cell.emb`).
-/
import proofs.«173350_j50087908606361_2_alg».proof.Proof.Gen.KernelIdeal.Frame
import Idealize.ShloMosaic.PureOps.Ideal
import proofs.«173350_j50087908606361_2_alg».proof.Proof.LibHostRead
import proofs.«173350_j50087908606361_2_alg».proof.Proof.Cell

noncomputable section

namespace Cert.KernelIdeal.Hand

open Cert.KernelIdeal Cert.KernelIdeal.Gen Idealize.ShloMosaic Idealize.ShloMosaic.TcCoe Idealize.SL.Sem
open Cert.HostRead

variable (m : (ℓ : Loc nD τ sig) → Buf (Elt Ideal) ℓ)

/-- The first weight matrix as the region finds it: the argument itself. -/
theorem V_w1 (c : Dev nD) : (V m c main_v23 : S1024x1280.Idx → EReal) = (m ((c : Thread nD τ).loc main_arg2)) := by
  show StableHlo.after hostOps0 (fun b => m (c, b)) (Proc.devRef .tc main_v23) = _
  read_results
  rfl

/-- The second weight matrix as the region finds it: the argument itself. -/
theorem V_w2 (c : Dev nD) : (V m c main_v24 : S512x1024.Idx → EReal) = (m ((c : Thread nD τ).loc main_arg4)) := by
  show StableHlo.after hostOps0 (fun b => m (c, b)) (Proc.devRef .tc main_v24) = _
  read_results
  rfl

/-- The first bias as the region finds it: the vector as a row. -/
theorem V_b1 (c : Dev nD) : (V m c main_v25 : S1x1024.Idx → EReal) = shapeCast S1x1024 (m ((c : Thread nD τ).loc main_arg3)) shapeCasts_S1024_S1x1024 := by
  show StableHlo.after hostOps0 (fun b => m (c, b)) (Proc.devRef .tc main_v25) = _
  read_results
  rfl

/-- The second bias as the region finds it: the vector as a row. -/
theorem V_b2 (c : Dev nD) : (V m c main_v26 : S1x512.Idx → EReal) = shapeCast S1x512 (m ((c : Thread nD τ).loc main_arg5)) shapeCasts_S512_S1x512 := by
  show StableHlo.after hostOps0 (fun b => m (c, b)) (Proc.devRef .tc main_v26) = _
  read_results
  rfl

set_option maxHeartbeats 2000000 in
/-- The cell branch before its unit axis, as the region finds it. -/
theorem V_cell (c : Dev nD) :
    (V m c main_v22 : S3x512.Idx → EReal) = Cert.Cell.pre (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) := by
  unfold Cert.Cell.pre Cert.Cell.pooled Cert.Cell.members
  show StableHlo.after hostOps0 (fun b => m (c, b)) (Proc.devRef .tc main_v22) = _
  read_results
  rfl

/-- The second result after the run: the one operation after the region reads `main_v22`, which the region leaves alone. -/
theorem tail_cell (c : Dev nD) :
    (Pipeline.afterTail₀ cfgs (dats m) 0 (V0 m) [hostOps1] c main_v28 : S3x1x512.Idx → EReal)
      = Cert.Cell.emb (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v28) = _
  after_results
  rw [Pipeline.withArrays_of_ne _ c (V0 m c) _ main_v22 (by exact (by decide : ∀ w, Pipeline.arrRef spec0 w ≠ main_v22))]
  show broadcastInDim S3x1x512 ![0, 2] bcast_S3x512_S3x1x512_0_2 (V m c main_v22 : S3x512.Idx → EReal) = _
  rw [V_cell]
  rfl

end Cert.KernelIdeal.Hand

end
-- ==== Proof.KernelValue.lean ====
/-
  The kernel's value: what the two result buffers hold after the run.

  The pallas_call walks 20 grid points. Point t stages rows 1000·t … 1000·t + 999 of the [20000, 1280] input and the whole
  of the two weight matrices and the two bias rows, and its body computes, for a tile row p and an output column q,
      (∑ h, ((∑ k, x (p, k) · W₁ (h, k)) + b₁ (0, h)) · W₂ (q, h)) + b₂ (0, q):
  a product with W₁ transposed into a zero accumulator, the bias row spread over the tile, the same again with W₂; the
  changes of float format between are the identity on the extended reals. It writes the tile back as rows
  1000·t … 1000·t + 999 of the [20000, 512] result. A row of two dense layers depends on that row of the input only, so
  the tile is the same rows of `Mlp.mlp` of the whole argument arrays, and the 20 tiles tile the result: the first result
  buffer ends at `proteinOut`. The second result is the cell branch, which the region never touches (KernelHost).
-/
import proofs.«173350_j50087908606361_2_alg».proof.Proof.Gen.KernelIdeal.Frame
import Idealize.ShloMosaic.PureOps.Ideal
import Idealize.ShloMosaic.Lib.Pipeline.Value
import Idealize.ShloMosaic.Lib.ValueLayout
import proofs.«173350_j50087908606361_2_alg».proof.Proof.LibHostLin
import proofs.«173350_j50087908606361_2_alg».proof.Proof.LibDenseLayer
import proofs.«173350_j50087908606361_2_alg».proof.Proof.KernelHost

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-! ## The body at an entry -/

/-- What the body stores, at tile row p and column q, from the five blocks it loads. -/
theorem pay_apply (v0 : Vec Ideal S1000x1280 .f32) (v2 : Vec Ideal S1024x1280 .bf16) (v6 : Vec Ideal S1x1024 .f32)
    (v11 : Vec Ideal S512x1024 .bf16) (v15 : Vec Ideal S1x512 .f32) (p : Fin 1000) (q : Fin 512) :
    k0_pay1 v0 v2 v6 v11 v15 (ix2 p q)
      = (∑ h : Fin 1024, ((∑ k : Fin 1280, v0 (ix2 p k) * v2 (ix2 h k)) + v6 (ix2 (0 : Fin 1) h)) * v11 (ix2 q h))
        + v15 (ix2 (0 : Fin 1) q) := by
  unfold k0_pay1
  dsimp only
  rw [shapeCast_self (s := S1024x1280) v2, shapeCast_self (s := S1x1024) v6, shapeCast_self (s := S512x1024) v11,
    shapeCast_self (s := S1x512) v15]
  exact Cert.Mlp.tile_mlp (R := 1000) (K := 1280) (H := 1024) (C := 512)
    dot_S1000x1280_S1280x1024_S1000x1024_1_0_0_1_n_n rfl dot_S1000x1024_S1024x512_S1000x512_1_0_0_1_n_n rfl
    transposes_S1024x1280_p1_0_S1280x1024 transposes_S512x1024_p1_0_S1024x512
    broadcasts_S1x1024_S1000x1024 broadcasts_S1x512_S1000x512
    (truncf .bf16 v0 bitsLt_bf16_f32) v2 v6 v11 v15 _ (fun _ => rfl) p q

/-! ## The blocks of a point -/

/-- The printed index maps over the 20 points: the input's and the output's block row is the point's number, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input block of point t is rows 1000·t … of the first argument. -/
theorem x_blk (c : Dev nD) (t : Fin cfg0.N) (p : Fin 1000) (k : Fin 1280) (hlt : 1000 * t.val + p.val < 20000) :
    (iblk m c 0 t : S1000x1280.Idx → EReal) (ix2 p k)
      = (m ((c : Thread nD τ).loc main_arg0) : S20000x1280.Idx → EReal) (ix2 ⟨1000 * t.val + p.val, hlt⟩ k) := by
  obtain ⟨e00, e01, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1000 + 1 * p.val = 1000 * t.val + p.val; omega
  | ⟨1, _⟩ => show win0_0.index t (1 : Fin 2) * 1280 + 1 * k.val = k.val; omega

/-- The first weight block of any point is the whole matrix, the third argument. -/
theorem w1_blk (c : Dev nD) (t : Fin cfg0.N) (y : S1024x1280.Idx) :
    (iblk m c 1 t : S1024x1280.Idx → EReal) y = (m ((c : Thread nD τ).loc main_arg2) : S1024x1280.Idx → EReal) y := by
  obtain ⟨-, -, e10, e11, -⟩ := idx_facts t
  rw [← V_w1 m c]
  show V m c main_v23 (((cfg0.win 1).blk t).view.emb y) = _
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1280 + 1 * (y 1).val = (y 1).val; omega

/-- The first bias block of any point, in its one line, is the fourth argument. -/
theorem b1_blk (c : Dev nD) (t : Fin cfg0.N) (h : Fin 1024) :
    (iblk m c 2 t : S1x1024.Idx → EReal) (ix2 (0 : Fin 1) h) = (m ((c : Thread nD τ).loc main_arg3) : S1024.Idx → EReal) (ix1 h) := by
  obtain ⟨-, -, -, -, e20, e21, -⟩ := idx_facts t
  rw [← HostLin.row_apply shapeCasts_S1024_S1x1024 (m ((c : Thread nD τ).loc main_arg3) : S1024.Idx → EReal) h, ← V_b1 m c]
  show V m c main_v25 (((cfg0.win 2).blk t).view.emb (ix2 (0 : Fin 1) h)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * h.val = h.val; omega

/-- The second weight block of any point is the whole matrix, the fifth argument. -/
theorem w2_blk (c : Dev nD) (t : Fin cfg0.N) (y : S512x1024.Idx) :
    (iblk m c 3 t : S512x1024.Idx → EReal) y = (m ((c : Thread nD τ).loc main_arg4) : S512x1024.Idx → EReal) y := by
  obtain ⟨-, -, -, -, -, -, e30, e31, -⟩ := idx_facts t
  rw [← V_w2 m c]
  show V m c main_v24 (((cfg0.win 3).blk t).view.emb y) = _
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 1024 + 1 * (y 1).val = (y 1).val; omega

/-- The second bias block of any point, in its one line, is the sixth argument. -/
theorem b2_blk (c : Dev nD) (t : Fin cfg0.N) (q : Fin 512) :
    (iblk m c 4 t : S1x512.Idx → EReal) (ix2 (0 : Fin 1) q) = (m ((c : Thread nD τ).loc main_arg5) : S512.Idx → EReal) (ix1 q) := by
  obtain ⟨-, -, -, -, -, -, -, -, e40, e41, -⟩ := idx_facts t
  rw [← HostLin.row_apply shapeCasts_S512_S1x512 (m ((c : Thread nD τ).loc main_arg5) : S512.Idx → EReal) q, ← V_b2 m c]
  show V m c main_v26 (((cfg0.win 4).blk t).view.emb (ix2 (0 : Fin 1) q)) = _
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * q.val = q.val; omega

/-! ## From the tiles to the array -/

/-- The protein branch of the whole argument arrays: two dense layers over all 20000 rows. -/
def proteinOut (c : Dev nD) : S20000x512.Idx → EReal :=
  Cert.Mlp.mlp (R := 20000) (K := 1280) (H := 1024) (C := 512)
    (m ((c : Thread nD τ).loc main_arg0)) (m ((c : Thread nD τ).loc main_arg2)) (m ((c : Thread nD τ).loc main_arg3))
    (m ((c : Thread nD τ).loc main_arg4)) (m ((c : Thread nD τ).loc main_arg5))

/-- What point t writes back is rows 1000·t … of `proteinOut`. -/
theorem flushed_eq (c : Dev nD) (t : Fin cfg0.N) :
    (dats m 0 c).flushed 5 t = ((cfg0.win 5).blk t).view.read (Elt Ideal) (proteinOut m c) := by
  show (cfg0.win 5).cut (grid0.coords t) ((dats m 0 c).after 5 t) = _
  rw [after0_5]
  unfold out0_5
  rw [View.canon_unit_zero hz]
  simp only [View.ld_unit_zero (S := S1000x1280) hz, View.ld_unit_zero (S := S1024x1280) hz, View.ld_unit_zero (S := S1x1024) hz,
    View.ld_unit_zero (S := S512x1024) hz, View.ld_unit_zero (S := S1x512) hz]
  obtain ⟨-, -, -, -, -, -, -, -, -, -, e50, e51⟩ := idx_facts t
  have hN : cfg0.N = 20 := N_0
  have ht : t.val < 20 := by have := t.isLt; omega
  funext j
  obtain ⟨p, q, rfl⟩ : ∃ (p : Fin 1000) (q : Fin 512), j = ix2 p q := ⟨j 0, j 1, eq_ix2 j⟩
  have hrow : 1000 * t.val + p.val < 20000 := by have := p.isLt; omega
  have hemb : ((cfg0.win 5).blk t).view.emb (ix2 p q) = (ix2 ⟨1000 * t.val + p.val, hrow⟩ q : S20000x512.Idx) := by
    funext a; apply Fin.ext
    match a with
    | ⟨0, _⟩ => show win0_5.index t (0 : Fin 2) * 1000 + 1 * p.val = 1000 * t.val + p.val; omega
    | ⟨1, _⟩ => show win0_5.index t (1 : Fin 2) * 512 + 1 * q.val = q.val; omega
  show k0_pay1 (iblk m c 0 t) (iblk m c 1 t) (iblk m c 2 t) (iblk m c 3 t) (iblk m c 4 t) (ix2 p q)
    = proteinOut m c (((cfg0.win 5).blk t).view.emb (ix2 p q))
  rw [hemb, pay_apply]
  unfold proteinOut
  rw [Cert.Mlp.mlp_apply]
  simp only [x_blk m c t p _ hrow, w1_blk m c t, b1_blk m c t, w2_blk m c t, b2_blk m c t]

/-- An index of the result is in point t's block iff each coordinate is in the block's range on its axis. -/
theorem mem_blk (t : Fin cfg0.N) (i : S20000x512.Idx) :
    i ∈ ((cfg0.win 5).blk t).view.set ↔ ∀ a : Fin 2, win0_5.index t a * S1000x512.size a ≤ (i a).val
      ∧ (i a).val < win0_5.index t a * S1000x512.size a + S1000x512.size a := by
  show i ∈ ((View.whole main_v27).slice (win0_5.rect t)).set ↔ _
  rw [View.set_slice_whole, Rect.mem_set_unit]
  exact Iff.rfl

/-- The first result after the run: row r is written by point r / 1000, and every point writes back. -/
theorem final (c : Dev nD) : (dats m 0 c).arrAt 5 cfg0.N = proteinOut m c :=
  (dats m 0 c).arrAt_eq_of_cover 5 (proteinOut m c) (fun t _ => flushed_eq m c t) fun i => by
    have hN : cfg0.N = 20 := N_0
    have hi0 : (i 0).val < 20000 := (i 0).isLt
    have hi1 : (i 1).val < 512 := (i 1).isLt
    obtain ⟨t, ht⟩ : ∃ t : Fin cfg0.N, t.val = (i 0).val / 1000 := ⟨⟨(i 0).val / 1000, by rw [hN]; omega⟩, rfl⟩
    obtain ⟨-, -, -, -, -, -, -, -, -, -, e50, e51⟩ := idx_facts t
    refine ⟨t, flush0_5 t, ?_⟩
    rw [mem_blk]
    intro a
    match a with
    | ⟨0, _⟩ =>
      show win0_5.index t (0 : Fin 2) * 1000 ≤ (i 0).val ∧ (i 0).val < win0_5.index t (0 : Fin 2) * 1000 + 1000
      omega
    | ⟨1, _⟩ =>
      show win0_5.index t (1 : Fin 2) * 512 ≤ (i 1).val ∧ (i 1).val < win0_5.index t (1 : Fin 2) * 512 + 512
      omega

/-! ## The run, read -/

/-- Every weakly fair execution of the kernel program terminates with the first result at `proteinOut`, the second at
    `Cell.emb`, and the arguments unchanged. -/
theorem run : θ_run defs (onTc (τ := τ) (main (F := Ideal))) ⟨m, fun _ => 0, ρ⟩ fun r => ∀ c : Dev nD,
      r.2.mem ((c.tc : Thread nD τ).loc main_v27) = proteinOut m c
      ∧ r.2.mem ((c.tc : Thread nD τ).loc main_v28) = Cert.Cell.emb (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 5).trans (final m c),
      ((h c).2 main_v28 (Pipeline.mem_restRefs_of main_v28 (by decide) (by decide))).trans (tail_cell m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Hand

end
-- ==== Proof.lean ====
/-
  The kernel against its reference, on the extended reals.

  Both programs return two arrays. The first, [20000, 512], is the protein branch: two dense layers x · W₁ᵀ + b₁, · W₂ᵀ + b₂
  with no activation between them. The reference computes it on the host over all 20000 rows; the kernel computes it
  in a pallas_call over 20 tiles of 1000 rows, its operands passing through a narrower float format, which on the extended
  reals is the identity. Entry (p, q) is the same nested sum on both sides,
      (∑ h, ((∑ k, x (p, k) · W₁ (h, k)) + b₁ h) · W₂ (q, h)) + b₂ q,
  with the same grouping, so no law of arithmetic is needed and the inputs' finiteness is never used. The second,
  [3, 1, 512], is the cell branch, which both programs compute on the host by the same operations (`Cell.emb`).

  The frames of the two kernel programs are the generated frame certificates; the reference's frame is its run with the
  results dropped; nothing was rewritten to idealize the kernel, so that conjunct is trivial.
-/
import proofs.«173350_j50087908606361_2_alg».proof.Defs
import proofs.«173350_j50087908606361_2_alg».proof.Proof.Gen.Kernel
import proofs.«173350_j50087908606361_2_alg».proof.Proof.Gen.Kernel.Skeleton
import proofs.«173350_j50087908606361_2_alg».proof.Proof.Gen.Kernel.Launch
import proofs.«173350_j50087908606361_2_alg».proof.Proof.Gen.Kernel.Points
import proofs.«173350_j50087908606361_2_alg».proof.Proof.Gen.Kernel.Frame
import proofs.«173350_j50087908606361_2_alg».proof.Proof.Gen.KernelIdeal
import proofs.«173350_j50087908606361_2_alg».proof.Proof.Gen.KernelIdeal.Skeleton
import proofs.«173350_j50087908606361_2_alg».proof.Proof.Gen.KernelIdeal.Launch
import proofs.«173350_j50087908606361_2_alg».proof.Proof.Gen.KernelIdeal.Points
import proofs.«173350_j50087908606361_2_alg».proof.Proof.Gen.KernelIdeal.Frame
import proofs.«173350_j50087908606361_2_alg».proof.Proof.Gen.ReferenceIdeal
import proofs.«173350_j50087908606361_2_alg».proof.Proof.Gen.Pre_finite_inputs
import proofs.«173350_j50087908606361_2_alg».proof.Proof.RefRun
import proofs.«173350_j50087908606361_2_alg».proof.Proof.RefValue
import proofs.«173350_j50087908606361_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.HandRun.run (F := Ideal) m ρ)

/-- From arguments that agree, the kernel's two results end at the protein branch's two dense layers and at the cell
    branch's embedding, and so do the reference's. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ?_) (Cert.ReferenceIdeal.HandRun.run (F := Ideal) m' ρ')
  obtain ⟨a0, a1, a2, a3, a4, a5, a6, a7, a8, a9⟩ := hagree c
  refine ⟨(h c).1.trans ?_, (h c).2.1.trans ?_, (h c).2.2⟩
  · rw [a0, a2, a3, a4, a5]
    exact Cert.ReferenceIdeal.HandRun.protein_eq _ _ _ _ _
  · rw [a0, a1, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
